-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S1x2048 : Shape := ⟨2, ![1, 2048]⟩
abbrev S512x2048 : Shape := ⟨2, ![512, 2048]⟩

abbrev nBuf : Space → Nat
  | .hbm => 9
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048x2048, .bf16⟩
  | .hbm, ⟨5, _⟩ => ⟨S2048x1, .f32⟩
  | .hbm, ⟨6, _⟩ => ⟨S1x2048, .f32⟩
  | .hbm, ⟨7, _⟩ => ⟨S16384x2048, .f32⟩
  | .hbm, ⟨8, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x1, .f32⟩
  | .local _ .vmem, ⟨5, _⟩ => ⟨S256x1, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S2048x1, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x4096x2048_S16384x2048 : S4x4096x2048.ShapeCasts S16384x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S256x1_S256x1_0_0 : ∀ a, (![0, 0] : Fin 2 → Nat) a + S256x1.size a ≤ S256x1.size a
  h_S256x1 : 0 < S256x1.numel
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S2048x1.size a
  hwx1_2 : ∀ i : grid1.Coords, EltTy.bits .f32 = 32 ∨ (Rect.block (s := S2048x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S16384x2048.size a
  hwx1_4 : ∀ i : grid1.Coords, EltTy.bits .f32 = 32 ∨ (Rect.block (s := S16384x2048) S512x2048.size (cc1_transform_4 i) (hinb1_4 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S2048x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .i1⟩
  | .hbm, ⟨19, _⟩ => ⟨S_, .f32⟩
  | .hbm, ⟨20, _⟩ => ⟨S2048x2048, .f32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_6 : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.KernelRun.lean ====
/-
  The program's run with every buffer named.

  The program is five segments: a reshape of the input to two axes, the quantization region, a reshape of the
  bias to a row, the matrix-product region, and a reshape of the product back to three axes. The run of the
  segments ends with every buffer that lives through the whole program at the contents the last segment
  leaves, the fold of the five segments over the launch memory. The frame of the program keeps of this only the
  argument arrays; here the whole final valuation is kept, so that the result array can be read from it.
-/
import proofs.«128771_j59562606461169_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every buffer
    that lives through the whole program holds what the last segment leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- In particular the result array and the three argument arrays. -/
theorem run_result : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)
    (run_all m ρ)

end Cert.KernelIdeal.Run

end
-- ==== Proof.Spec.lean ====
/-
  The mathematics of a ternary-quantized linear layer on the extended reals.

  A weight matrix `w` of 2048 rows is quantized row by row. Row `o` has the scale
  `s o = max ((∑ k, |w o k|) / 2048) ε` (the mean absolute value of the row, kept above a small floor `ε`),
  and each entry becomes `t o k ∈ {1, -1, 0}` according to whether `w o k / s o` lies above the threshold,
  below its negative, or in between. The layer maps a row of inputs `x` to
  `(∑ k, x k * t o k) * s o + bias o`: the ternary matrix is applied first and the scale afterwards.
  Applying the dequantized matrix `t o k * s o` directly gives `∑ k, x k * (t o k * s o) + bias o`.
  The two agree because multiplication by a finite non-negative number distributes over any sum of
  extended reals, and the scale is such a number as soon as the weights are finite.
-/
import Idealize.ShloMosaic.PureOps.Ideal
import Idealize.ShloMosaic.PureOps.Ideal.Laws
import Idealize.ShloMosaic.Lib.ValueIdx

noncomputable section

open scoped BigOperators

namespace Cert.TernSpec

open Idealize.ShloMosaic Idealize.ShloMosaic.ValueIdx

/-- The scale of row `o`: the mean of the row's absolute values (the sum divided by the float `2048.0`), kept
    above the floor (the float nearest `1e-8`). An absolute value is `max a (-a)`. -/
def rowScale (w : (⟨2, ![2048, 2048]⟩ : Shape).Idx → EReal) (o : Fin 2048) : EReal :=
  max (Ideal.div (∑ k : Fin 2048, max (w (ix2 o k)) (-(w (ix2 o k)))) (Ideal.ofBits .f32 0x45000000#32))
    (Ideal.ofBits .f32 0x322BCC77#32)

/-- The ternary entry `(o, k)`: `1.0` when the entry over its row's scale exceeds the float `0.05`, else `-1.0`
    when it is below the float `-0.05`, else `0.0`. -/
def ternAt (w : (⟨2, ![2048, 2048]⟩ : Shape).Idx → EReal) (o k : Fin 2048) : EReal :=
  Scalar.select (Ideal.cmp .ogt (Ideal.div (w (ix2 o k)) (rowScale w o)) (Ideal.ofBits .f32 0x3D4CCCCD#32))
    (Ideal.ofBits .f32 0x3F800000#32)
    (Scalar.select (Ideal.cmp .olt (Ideal.div (w (ix2 o k)) (rowScale w o)) (Ideal.ofBits .f32 0xBD4CCCCD#32))
      (Ideal.ofBits .f32 0xBF800000#32) (Ideal.ofBits .f32 0x00000000#32))

/-- The layer's output at batch `b`, position `s`, feature `o`: the ternary row applied to the input row,
    then the row's scale, then the bias. -/
def layerAt (x : (⟨3, ![4, 4096, 2048]⟩ : Shape).Idx → EReal) (w : (⟨2, ![2048, 2048]⟩ : Shape).Idx → EReal)
    (bias : (⟨1, ![2048]⟩ : Shape).Idx → EReal) (b : Fin 4) (s : Fin 4096) (o : Fin 2048) : EReal :=
  (∑ k : Fin 2048, x (ix3 b s k) * ternAt w o k) * rowScale w o + bias (ix1 o)

/-- The whole output array. -/
def layer (x : (⟨3, ![4, 4096, 2048]⟩ : Shape).Idx → EReal) (w : (⟨2, ![2048, 2048]⟩ : Shape).Idx → EReal)
    (bias : (⟨1, ![2048]⟩ : Shape).Idx → EReal) : (⟨3, ![4, 4096, 2048]⟩ : Shape).Idx → EReal :=
  fun i => layerAt x w bias (i 0) (i 1) (i 2)

/-! ## The two float constants the scale is built from -/

/-- The divisor `2048.0` denotes the real number 2048. -/
theorem ofBits_2048 : Ideal.ofBits .f32 0x45000000#32 = ((2048 : ℝ) : EReal) := by
  simp [Ideal.ofBits, Ideal.ieee, -EReal.coe_mul]; norm_num

/-- The floor is a non-negative real number. -/
theorem floor_real : ∃ e : ℝ, 0 ≤ e ∧ Ideal.ofBits .f32 0x322BCC77#32 = (e : EReal) := by
  refine ⟨_, ?_, by simp [Ideal.ofBits, Ideal.ieee, -EReal.coe_mul]; rfl⟩
  positivity

/-! ## Sums of extended reals -/

/-- The embedding of the reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The embedding of the reals commutes with the maximum of two numbers: it is monotone. -/
theorem coe_max (a b : ℝ) : ((max a b : ℝ) : EReal) = max (a : EReal) (b : EReal) :=
  EReal.coe_strictMono.monotone.map_max

/-- Multiplication by a finite non-negative extended real distributes over any finite sum. -/
theorem sum_mul_of_nonneg_of_ne_top {ι : Type*} (s : Finset ι) (a : ι → EReal) {c : EReal} (h0 : 0 ≤ c) (ht : c ≠ ⊤) :
    (∑ k ∈ s, a k) * c = ∑ k ∈ s, a k * c := by
  classical
  induction s using Finset.induction_on with
  | empty => simp
  | insert i s hi ih =>
    rw [Finset.sum_insert hi, Finset.sum_insert hi, EReal.right_distrib_of_nonneg_of_ne_top h0 ht, ih]

/-! ## The scale of a row of finite weights -/

/-- With finite weights every row's scale is a non-negative real number. -/
theorem rowScale_real (w : (⟨2, ![2048, 2048]⟩ : Shape).Idx → EReal) (hw : ∀ i, ∃ r : ℝ, w i = (r : EReal)) (o : Fin 2048) :
    ∃ r : ℝ, 0 ≤ r ∧ rowScale w o = (r : EReal) := by
  choose r hr using hw
  obtain ⟨e, he0, he⟩ := floor_real
  refine ⟨max ((∑ k : Fin 2048, max (r (ix2 o k)) (-(r (ix2 o k)))) * (1 / 2048 : ℝ)) e, le_max_of_le_right he0, ?_⟩
  unfold rowScale
  rw [he, ofBits_2048, Ideal.div_coe (by norm_num : (2048 : ℝ) ≠ 0), coe_max, EReal.coe_mul, coe_sum]
  refine congrArg (fun z => max (z * _) _) (Finset.sum_congr rfl fun k _ => ?_)
  rw [hr, coe_max, EReal.coe_neg]

/-- So applying the ternary row and then the scale is applying the dequantized row. -/
theorem scaled_sum (x : (⟨3, ![4, 4096, 2048]⟩ : Shape).Idx → EReal) (w : (⟨2, ![2048, 2048]⟩ : Shape).Idx → EReal)
    (hw : ∀ i, ∃ r : ℝ, w i = (r : EReal)) (b : Fin 4) (s : Fin 4096) (o : Fin 2048) :
    ∑ k : Fin 2048, x (ix3 b s k) * (ternAt w o k * rowScale w o)
      = (∑ k : Fin 2048, x (ix3 b s k) * ternAt w o k) * rowScale w o := by
  obtain ⟨r, hr0, hr⟩ := rowScale_real w hw o
  rw [sum_mul_of_nonneg_of_ne_top _ _ (by rw [hr]; exact_mod_cast hr0) (by rw [hr]; exact EReal.coe_ne_top r)]
  exact Finset.sum_congr rfl fun k _ => (mul_assoc _ _ _).symm

end Cert.TernSpec

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Quant.lean ====
/-
  The quantization kernel's two stored values, read at an entry.

  One grid step holds 256 rows of the weight matrix. Its first stored value is the column of the rows' scales;
  its second the block of ternary entries. Read at row `p` each is the function of that row alone which
  `Cert.TernSpec` describes: the sum runs over the row's 2048 entries, the cast to a column and the spreading of
  the column over the block only carry the row's scale to every entry of the row, and the change of float
  format of the ternary entries is the identity on extended reals.
-/
import proofs.«128771_j59562606461169_2_alg».proof.Proof.Gen.KernelIdeal.Skeleton
import proofs.«128771_j59562606461169_2_alg».proof.Proof.Spec
import proofs.«128771_j59562606461169_2_alg».proof.Proof.LibKeepdims
import Idealize.ShloMosaic.Lib.ValueIdx
import Idealize.ShloMosaic.Lib.ValueLayout
import Idealize.ShloMosaic.PureOps.Ideal.Laws

noncomputable section

open scoped BigOperators

namespace Cert.KernelIdeal.Quant

open Cert.KernelIdeal Cert.KernelIdeal.Gen Idealize.ShloMosaic Idealize.ShloMosaic.ValueIdx

/-- The scale of a block's row `p`: what `Cert.TernSpec.rowScale` is for a row of the whole matrix. -/
def blockScale (x0 : FVec Ideal S256x2048 .f32) (p : Fin 256) : EReal :=
  max (Ideal.div (∑ k : Fin 2048, max (x0 (ix2 p k)) (-(x0 (ix2 p k)))) (Ideal.ofBits .f32 0x45000000#32))
    (Ideal.ofBits .f32 0x322BCC77#32)

/-- The stored column of scales, at row `p`. -/
theorem scale_payload (x0 : FVec Ideal S256x2048 .f32) (p : Fin 256) (u : Fin 1) :
    k0_pay1 (F := Ideal) x0 (ix2 p u) = blockScale x0 p := by
  unfold k0_pay1 blockScale
  dsimp only
  refine congrArg₂ max (congrArg₂ Ideal.div ?_ rfl) rfl
  refine (Cert.LibKeepdims.shapeCast_a_a1_apply _ shapeCasts_S256_S256x1 p u).trans ?_
  exact Cert.LibKeepdims.rowSum_apply (absf x0) reduces_S256x2048_S256 (.inl rfl) rfl p

/-- The stored block of ternary entries, at `(p, q)`. -/
theorem tern_payload (x0 : FVec Ideal S256x2048 .f32) (p : Fin 256) (q : Fin 2048) :
    k0_pay2 (F := Ideal) x0 (ix2 p q)
      = Scalar.select (Ideal.cmp .ogt (Ideal.div (x0 (ix2 p q)) (blockScale x0 p)) (Ideal.ofBits .f32 0x3D4CCCCD#32))
          (Ideal.ofBits .f32 0x3F800000#32)
          (Scalar.select (Ideal.cmp .olt (Ideal.div (x0 (ix2 p q)) (blockScale x0 p)) (Ideal.ofBits .f32 0xBD4CCCCD#32))
            (Ideal.ofBits .f32 0xBF800000#32) (Ideal.ofBits .f32 0x00000000#32)) := by
  have hs : broadcastTo S256x2048 (k0_pay1 (F := Ideal) x0) broadcasts_S256x1_S256x2048 (ix2 p q) = blockScale x0 p :=
    (Cert.LibKeepdims.broadcastTo_a1_ab_apply _ broadcasts_S256x1_S256x2048 p q).trans (scale_payload x0 p 0)
  unfold k0_pay2
  show Scalar.select (Ideal.cmp .ogt (Ideal.div (x0 (ix2 p q)) (broadcastTo S256x2048 (k0_pay1 (F := Ideal) x0) broadcasts_S256x1_S256x2048 (ix2 p q))) _) _
      (Scalar.select (Ideal.cmp .olt (Ideal.div (x0 (ix2 p q)) (broadcastTo S256x2048 (k0_pay1 (F := Ideal) x0) broadcasts_S256x1_S256x2048 (ix2 p q))) _) _ _) = _
  rw [hs]
  rfl

end Cert.KernelIdeal.Quant

end
-- ==== Proof.Blocks0.lean ====
/-
  The quantization region: from what each grid step writes back to the two whole output arrays.

  The region has 8 grid steps. Step `t` reads rows `256 t … 256 t + 255` of the weight matrix and writes the
  same rows of the ternary matrix and of the column of scales. Since a row's scale and ternary entries depend
  on that row of the weights only, the block a step writes is the block of ONE whole-array function of the
  weights, and the 8 blocks tile the arrays: after the region the ternary array and the scale column are those
  functions of the weight matrix as the region found it.
-/
import proofs.«128771_j59562606461169_2_alg».proof.Proof.Gen.KernelIdeal.Frame
import proofs.«128771_j59562606461169_2_alg».proof.Proof.Quant
import Idealize.ShloMosaic.Lib.Pipeline.Value

noncomputable section

open scoped BigOperators

namespace Cert.KernelIdeal.Region0

open Cert.KernelIdeal Cert.KernelIdeal.Gen Cert.KernelIdeal.Quant Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The ternary matrix as a function of the weight matrix. -/
def ternArr (w : S2048x2048.Idx → EReal) : S2048x2048.Idx → EReal := fun i => Cert.TernSpec.ternAt w (i 0) (i 1)

/-- The column of scales as a function of the weight matrix. -/
def scaleArr (w : S2048x2048.Idx → EReal) : S2048x1.Idx → EReal := fun i => Cert.TernSpec.rowScale w (i 0)

theorem hz : (![0, 0] : Fin 2 → Nat) = fun _ => 0 := funext fun a => by fin_cases a <;> rfl

/-- All three windows of the region move with the grid step along the rows and stay at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry `(p, k)` of the weight block of step `t` is entry `(256 t + p, k)` of the weight matrix. -/
theorem wblock_apply (c : Dev nD) (t : Fin cfg0.N) (p : Fin 256) (k : Fin 2048) (o : Fin 2048) (ho : o.val = t.val * 256 + p.val) :
    (iblk0 V c 0 t : FVec Ideal S256x2048 .f32) (ix2 p k) = (V c main_arg1 : S2048x2048.Idx → EReal) (ix2 o k) := by
  obtain ⟨e0, e1, -⟩ := idx_facts t
  unfold iblk0
  rw [View.read_apply]
  show V c main_arg1 _ = V c main_arg1 _
  refine congrArg _ (funext fun a => Fin.ext ?_)
  match a with
  | ⟨0, _⟩ => show win0_0.index t (0 : Fin 2) * 256 + 1 * p.val = o.val; rw [e0, ho]; omega
  | ⟨1, _⟩ => show win0_0.index t (1 : Fin 2) * 2048 + 1 * k.val = k.val; rw [e1]; omega

/-- The scale of row `p` of step `t`'s block is the scale of row `256 t + p` of the matrix. -/
theorem blockScale_eq (c : Dev nD) (t : Fin cfg0.N) (p : Fin 256) (o : Fin 2048) (ho : o.val = t.val * 256 + p.val) :
    blockScale (iblk0 V c 0 t) p = Cert.TernSpec.rowScale (V c main_arg1) o := by
  unfold blockScale Cert.TernSpec.rowScale
  refine congrArg (fun z => max (Ideal.div z _) _) (Finset.sum_congr rfl fun k _ => ?_)
  rw [wblock_apply V c t p k o ho]

/-- The ternary entry `(p, q)` of step `t`'s block is the entry `(256 t + p, q)` of the ternary matrix. -/
theorem ternBlock_eq (c : Dev nD) (t : Fin cfg0.N) (p : Fin 256) (q : Fin 2048) (o : Fin 2048) (ho : o.val = t.val * 256 + p.val) :
    k0_pay2 (F := Ideal) (iblk0 V c 0 t) (ix2 p q) = Cert.TernSpec.ternAt (V c main_arg1) o q := by
  rw [tern_payload, blockScale_eq V c t p o ho, wblock_apply V c t p q o ho]
  rfl

/-! ## The ternary array -/

/-- What step `t` writes back to the ternary array is block `t` of the ternary matrix. -/
theorem flushed_tern (c : Dev nD) (t : Fin cfg0.N) :
    (dat0 V c).flushed 1 t = ((cfg0.win 1).blk t).view.read (Elt Ideal) (ternArr (V c main_arg1)) := by
  show (cfg0.win 1).cut (grid0.coords t) ((dat0 V c).after 1 t) = _
  rw [after0_1]
  unfold out0_1
  rw [View.canon_unit_zero hz]
  simp only [View.ld_unit_zero (S := S256x2048) hz]
  obtain ⟨-, -, e0, e1, -⟩ := idx_facts t
  have hN : t.val < 8 := t.isLt.trans_eq N_0
  funext j
  have hj0 : (j 0).val < 256 := (j 0).isLt
  have hj1 : (j 1).val < 2048 := (j 1).isLt
  have hj : j = ix2 (⟨(j 0).val, hj0⟩ : Fin 256) (⟨(j 1).val, hj1⟩ : Fin 2048) :=
    funext fun a => Fin.ext (by match a with | ⟨0, _⟩ => rfl | ⟨1, _⟩ => rfl)
  have hemb : ((cfg0.win 1).blk t).view.emb j
      = ix2 (⟨t.val * 256 + (j 0).val, by omega⟩ : Fin 2048) (⟨(j 1).val, hj1⟩ : Fin 2048) :=
    funext fun a => Fin.ext (by
      match a with
      | ⟨0, _⟩ => show win0_1.index t (0 : Fin 2) * 256 + 1 * (j 0).val = t.val * 256 + (j 0).val; rw [e0]; omega
      | ⟨1, _⟩ => show win0_1.index t (1 : Fin 2) * 2048 + 1 * (j 1).val = (j 1).val; rw [e1]; omega)
  show k0_pay2 (F := Ideal) (iblk0 V c 0 t) j = ternArr (V c main_arg1) (((cfg0.win 1).blk t).view.emb j)
  refine (congrArg (k0_pay2 (F := Ideal) (iblk0 V c 0 t)) hj).trans ?_
  refine (ternBlock_eq V c t ⟨(j 0).val, hj0⟩ ⟨(j 1).val, hj1⟩ ⟨t.val * 256 + (j 0).val, by omega⟩ rfl).trans ?_
  exact (congrArg (ternArr (V c main_arg1)) hemb).symm

/-- An index of the ternary array is in step `t`'s block iff each coordinate is in the block's range. -/
theorem mem_blk_tern (t : Fin cfg0.N) (i : S2048x2048.Idx) :
    i ∈ ((cfg0.win 1).blk t).view.set ↔ ∀ a : Fin 2, win0_1.index t a * S256x2048.size a ≤ (i a).val ∧ (i a).val < win0_1.index t a * S256x2048.size a + S256x2048.size a := by
  show i ∈ ((View.whole main_v1_0).slice (win0_1.rect t)).set ↔ _
  rw [View.set_slice_whole, Rect.mem_set_unit]
  exact Iff.rfl

/-- Row `r` of the ternary array lies in the block of step `r / 256`. -/
theorem cover_tern (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  refine ⟨⟨(i 0).val / 256, Nat.lt_of_lt_of_eq (by omega) N_0.symm⟩, flush0_1 _, ?_⟩
  rw [mem_blk_tern]
  obtain ⟨-, -, e0, e1, -⟩ := idx_facts ⟨(i 0).val / 256, Nat.lt_of_lt_of_eq (by omega) N_0.symm⟩
  intro a
  match a with
  | ⟨0, _⟩ =>
    show win0_1.index _ (0 : Fin 2) * 256 ≤ (i 0).val ∧ (i 0).val < win0_1.index _ (0 : Fin 2) * 256 + 256
    rw [e0]; show (i 0).val / 256 * 256 ≤ (i 0).val ∧ (i 0).val < (i 0).val / 256 * 256 + 256; omega
  | ⟨1, _⟩ =>
    show win0_1.index _ (1 : Fin 2) * 2048 ≤ (i 1).val ∧ (i 1).val < win0_1.index _ (1 : Fin 2) * 2048 + 2048
    rw [e1]; omega

/-- After the region the ternary array is the ternary matrix of the weights as the region found them. -/
theorem final_tern (c : Dev nD) : (dat0 V c).arrAt 1 cfg0.N = ternArr (V c main_arg1) :=
  (dat0 V c).arrAt_eq_of_cover 1 (ternArr (V c main_arg1)) (fun t _ => flushed_tern V c t) cover_tern

/-! ## The column of scales -/

/-- What step `t` writes back to the column of scales is block `t` of the scales of the matrix. -/
theorem flushed_scale (c : Dev nD) (t : Fin cfg0.N) :
    (dat0 V c).flushed 2 t = ((cfg0.win 2).blk t).view.read (Elt Ideal) (scaleArr (V c main_arg1)) := by
  show (cfg0.win 2).cut (grid0.coords t) ((dat0 V c).after 2 t) = _
  rw [after0_2]
  unfold out0_2
  rw [View.canon_unit_zero hz]
  simp only [View.ld_unit_zero (S := S256x2048) hz]
  obtain ⟨-, -, -, -, e0, e1⟩ := idx_facts t
  have hN : t.val < 8 := t.isLt.trans_eq N_0
  funext j
  have hj0 : (j 0).val < 256 := (j 0).isLt
  have hj1 : (j 1).val < 1 := (j 1).isLt
  have hj : j = ix2 (⟨(j 0).val, hj0⟩ : Fin 256) (⟨(j 1).val, hj1⟩ : Fin 1) :=
    funext fun a => Fin.ext (by match a with | ⟨0, _⟩ => rfl | ⟨1, _⟩ => rfl)
  have hemb : ((cfg0.win 2).blk t).view.emb j
      = ix2 (⟨t.val * 256 + (j 0).val, by omega⟩ : Fin 2048) (⟨(j 1).val, hj1⟩ : Fin 1) :=
    funext fun a => Fin.ext (by
      match a with
      | ⟨0, _⟩ => show win0_2.index t (0 : Fin 2) * 256 + 1 * (j 0).val = t.val * 256 + (j 0).val; rw [e0]; omega
      | ⟨1, _⟩ => show win0_2.index t (1 : Fin 2) * 1 + 1 * (j 1).val = (j 1).val; rw [e1]; omega)
  show k0_pay1 (F := Ideal) (iblk0 V c 0 t) j = scaleArr (V c main_arg1) (((cfg0.win 2).blk t).view.emb j)
  refine (congrArg (k0_pay1 (F := Ideal) (iblk0 V c 0 t)) hj).trans ?_
  refine (scale_payload _ ⟨(j 0).val, hj0⟩ ⟨(j 1).val, hj1⟩).trans ?_
  refine (blockScale_eq V c t ⟨(j 0).val, hj0⟩ ⟨t.val * 256 + (j 0).val, by omega⟩ rfl).trans ?_
  exact (congrArg (scaleArr (V c main_arg1)) hemb).symm

/-- An index of the column of scales is in step `t`'s block iff each coordinate is in the block's range. -/
theorem mem_blk_scale (t : Fin cfg0.N) (i : S2048x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_1).slice (win0_2.rect t)).set ↔ _
  rw [View.set_slice_whole, Rect.mem_set_unit]
  exact Iff.rfl

/-- Row `r` of the column of scales lies in the block of step `r / 256`. -/
theorem cover_scale (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  refine ⟨⟨(i 0).val / 256, Nat.lt_of_lt_of_eq (by omega) N_0.symm⟩, flush0_2 _, ?_⟩
  rw [mem_blk_scale]
  obtain ⟨-, -, -, -, e0, e1⟩ := idx_facts ⟨(i 0).val / 256, Nat.lt_of_lt_of_eq (by omega) N_0.symm⟩
  intro a
  match a with
  | ⟨0, _⟩ =>
    show win0_2.index _ (0 : Fin 2) * 256 ≤ (i 0).val ∧ (i 0).val < win0_2.index _ (0 : Fin 2) * 256 + 256
    rw [e0]; show (i 0).val / 256 * 256 ≤ (i 0).val ∧ (i 0).val < (i 0).val / 256 * 256 + 256; omega
  | ⟨1, _⟩ =>
    show win0_2.index _ (1 : Fin 2) * 1 ≤ (i 1).val ∧ (i 1).val < win0_2.index _ (1 : Fin 2) * 1 + 1
    rw [e1]; omega

/-- After the region the column of scales is the scales of the weights as the region found them. -/
theorem final_scale (c : Dev nD) : (dat0 V c).arrAt 2 cfg0.N = scaleArr (V c main_arg1) :=
  (dat0 V c).arrAt_eq_of_cover 2 (scaleArr (V c main_arg1)) (fun t _ => flushed_scale V c t) cover_scale

end Cert.KernelIdeal.Region0

end
-- ==== Proof.Matmul.lean ====
/-
  The matrix-product kernel's stored value, read at an entry.

  One grid step holds 512 rows of the flattened input `x0`, the whole ternary matrix `x1`, the column of
  scales `x2` and the bias row `x3`. At `(p, q)` it stores the product of input row `p` with ternary row `q`
  (both operands are contracted along their second axis, so no transpose of the matrix is taken), times the
  scale of row `q`, plus the bias at `q`. The scale column is transposed into a row and spread over the rows
  of the block, the bias row is spread likewise; the rounding of the input to a shorter float format is the
  identity on extended reals, and the product starts from a zero accumulator.
-/
import proofs.«128771_j59562606461169_2_alg».proof.Proof.Gen.KernelIdeal.Skeleton
import proofs.«128771_j59562606461169_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Matmul

open Cert.KernelIdeal Cert.KernelIdeal.Gen Idealize.ShloMosaic Idealize.ShloMosaic.ValueIdx

/-- The product's dimension record: both operands contracted along axis 1. -/
abbrev D := dot_S512x2048_S2048x2048_S512x2048_1_1_0_0_n_n

/-- The left operand's row coordinate is the output's row. -/
theorem lhs_row (i : S512x2048.Idx) (c : D.contr.Idx) : (D.lhsIdx i c 0).val = (i 0).val := by
  unfold DotDims.lhsIdx
  rw [dif_neg (show ¬(0 : Fin S512x2048.rank) ∈ D.lhsBatch by decide), dif_pos (show (0 : Fin S512x2048.rank) ∈ D.lhsNonContracting by decide)]
  rfl

/-- The right operand's ROW coordinate is the output's column. -/
theorem rhs_row (i : S512x2048.Idx) (c : D.contr.Idx) : (D.rhsIdx i c 0).val = (i 1).val := by
  unfold DotDims.rhsIdx
  rw [dif_neg (show ¬(0 : Fin S2048x2048.rank) ∈ D.rhsBatch by decide), dif_pos (show (0 : Fin S2048x2048.rank) ∈ D.rhsNonContracting by decide)]
  rfl

/-- The left operand is read at the output's row and the contracted coordinate. -/
theorem lhs_idx (p : Fin 512) (q : Fin 2048) (k : Fin 2048) :
    D.lhsIdx (ix2 p q) ((contrEquiv1 D 2048 rfl rfl).symm k) = ix2 p k := by
  have hk := contrEquiv1_symm_val D 2048 rfl rfl k
  funext a; apply Fin.ext
  match a with
  | ⟨0, _⟩ => exact lhs_row _ _
  | ⟨1, _⟩ => exact (D.lhsIdx_val_of_single rfl (ix2 p q) _).trans hk

/-- The right operand is read at the output's column, as ITS row, and the contracted coordinate. -/
theorem rhs_idx (p : Fin 512) (q : Fin 2048) (k : Fin 2048) :
    D.rhsIdx (ix2 p q) ((contrEquiv1 D 2048 rfl rfl).symm k) = ix2 q k := by
  have hk := contrEquiv1_symm_val D 2048 rfl rfl k
  funext a; apply Fin.ext
  match a with
  | ⟨0, _⟩ => exact rhs_row _ _
  | ⟨1, _⟩ => exact (D.rhsIdx_val_of_single rfl (ix2 p q) _).trans hk

/-- The product from a zero accumulator, at `(p, q)`: the sum over the 2048 contracted coordinates. -/
theorem product_apply (a : FVec Ideal S512x2048 .bf16) (b : FVec Ideal S2048x2048 .bf16) (p : Fin 512) (q : Fin 2048) :
    matmul D none a b (constant S512x2048 .f32 0x00000000#32) (ix2 p q) = ∑ k : Fin 2048, a (ix2 p k) * b (ix2 q k) := by
  refine (Ideal.matmul_constant_zero_apply D none a b (ix2 p q)).trans ?_
  rw [← Equiv.sum_comp (contrEquiv1 D 2048 rfl rfl).symm]
  refine Finset.sum_congr rfl fun k _ => ?_
  rw [lhs_idx, rhs_idx]

/-- The stored block at `(p, q)`. -/
theorem payload_apply (x0 : FVec Ideal S512x2048 .f32) (x1 : FVec Ideal S2048x2048 .bf16) (x2 : FVec Ideal S2048x1 .f32)
    (x3 : FVec Ideal S1x2048 .f32) (p : Fin 512) (q : Fin 2048) :
    k1_pay1 (F := Ideal) x0 x1 x2 x3 (ix2 p q)
      = (∑ k : Fin 2048, x0 (ix2 p k) * x1 (ix2 q k)) * x2 (ix2 q (0 : Fin 1)) + x3 (ix2 (0 : Fin 1) q) := by
  unfold k1_pay1
  dsimp only
  refine congrArg₂ (· + ·) (congrArg₂ (· * ·) ?_ ?_) ?_
  · refine (product_apply _ _ p q).trans (Finset.sum_congr rfl fun k _ => ?_)
    exact congrArg₂ (· * ·) (congrFun (shapeCast_self x0 shapeCasts_S512x2048_S512x2048) _)
      (congrFun (shapeCast_self x1 shapeCasts_S2048x2048_S2048x2048) _)
  · refine (broadcastTo_1b_ab_apply _ broadcasts_S1x2048_S512x2048 p q).trans ?_
    refine (transpose_ix2_apply _ transposes_S2048x1_p1_0_S1x2048 (0 : Fin 1) q).trans ?_
    exact congrFun (shapeCast_self x2 shapeCasts_S2048x1_S2048x1) _
  · exact Cert.LibKeepdims.row_spread_apply x3 shapeCasts_S1x2048_S1x2048 broadcasts_S1x2048_S512x2048 p q

end Cert.KernelIdeal.Matmul

end
-- ==== Proof.Blocks1.lean ====
/-
  The matrix-product region: from what each grid step writes back to the whole output array.

  The region has 32 grid steps. Step `t` reads rows `512 t … 512 t + 511` of the flattened input, and the whole
  ternary matrix, column of scales and bias row, which stay in place for all steps; it writes the same rows of
  the output. Entry `(r, q)` of the output depends on input row `r` only, so each written block is the block of
  one whole-array function of the four input arrays, and the 32 blocks tile the output.
-/
import proofs.«128771_j59562606461169_2_alg».proof.Proof.Gen.KernelIdeal.Frame
import proofs.«128771_j59562606461169_2_alg».proof.Proof.Matmul
import Idealize.ShloMosaic.Lib.Pipeline.Value

noncomputable section

open scoped BigOperators

namespace Cert.KernelIdeal.Region1

open Cert.KernelIdeal Cert.KernelIdeal.Gen Cert.KernelIdeal.Matmul Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's output as a function of its four input arrays: the flattened input `X`, the ternary matrix `T`,
    the column of scales `S` and the bias row `B`. -/
def outArr (X : S16384x2048.Idx → EReal) (T : S2048x2048.Idx → EReal) (S : S2048x1.Idx → EReal) (B : S1x2048.Idx → EReal) :
    S16384x2048.Idx → EReal :=
  fun i => (∑ k : Fin 2048, X (ix2 (i 0) k) * T (ix2 (i 1) k)) * S (ix2 (i 1) (0 : Fin 1)) + B (ix2 (0 : Fin 1) (i 1))

/-- The output function at row `r` and column `q`. -/
theorem outArr_apply (X : S16384x2048.Idx → EReal) (T : S2048x2048.Idx → EReal) (S : S2048x1.Idx → EReal) (B : S1x2048.Idx → EReal)
    (r : Fin 16384) (q : Fin 2048) :
    outArr X T S B (ix2 r q) = (∑ k : Fin 2048, X (ix2 r k) * T (ix2 q k)) * S (ix2 q (0 : Fin 1)) + B (ix2 (0 : Fin 1) q) := rfl

theorem hz : (![0, 0] : Fin 2 → Nat) = fun _ => 0 := funext fun a => by fin_cases a <;> rfl

/-- The input and the output move with the grid step along the rows; the other three windows stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the input block of step `t` is entry `(512 t + p, k)` of the flattened input. -/
theorem xblock_apply (c : Dev nD) (t : Fin cfg1.N) (p : Fin 512) (k : Fin 2048) (r : Fin 16384) (hr : r.val = t.val * 512 + p.val) :
    (iblk1 V c 0 t : FVec Ideal S512x2048 .f32) (ix2 p k) = (V c main_v0 : S16384x2048.Idx → EReal) (ix2 r k) := by
  obtain ⟨e0, e1, -⟩ := idx_facts t
  unfold iblk1
  rw [View.read_apply]
  show V c main_v0 _ = V c main_v0 _
  refine congrArg _ (funext fun a => Fin.ext ?_)
  match a with
  | ⟨0, _⟩ => show win1_0.index t (0 : Fin 2) * 512 + 1 * p.val = r.val; rw [e0, hr]; omega
  | ⟨1, _⟩ => show win1_0.index t (1 : Fin 2) * 2048 + 1 * k.val = k.val; rw [e1]; omega

/-- The ternary window's block is the whole ternary array at every step. -/
theorem tblock_apply (c : Dev nD) (t : Fin cfg1.N) (q k : Fin 2048) :
    (iblk1 V c 1 t : FVec Ideal S2048x2048 .bf16) (ix2 q k) = (V c main_v1_0 : S2048x2048.Idx → EReal) (ix2 q k) := by
  obtain ⟨-, -, e0, e1, -⟩ := idx_facts t
  unfold iblk1
  rw [View.read_apply]
  show V c main_v1_0 _ = V c main_v1_0 _
  refine congrArg _ (funext fun a => Fin.ext ?_)
  match a with
  | ⟨0, _⟩ => show win1_1.index t (0 : Fin 2) * 2048 + 1 * q.val = q.val; rw [e0]; omega
  | ⟨1, _⟩ => show win1_1.index t (1 : Fin 2) * 2048 + 1 * k.val = k.val; rw [e1]; omega

/-- The scale window's block is the whole column of scales at every step. -/
theorem sblock_apply (c : Dev nD) (t : Fin cfg1.N) (q : Fin 2048) (u : Fin 1) :
    (iblk1 V c 2 t : FVec Ideal S2048x1 .f32) (ix2 q u) = (V c main_v1_1 : S2048x1.Idx → EReal) (ix2 q u) := by
  obtain ⟨-, -, -, -, e0, e1, -⟩ := idx_facts t
  unfold iblk1
  rw [View.read_apply]
  show V c main_v1_1 _ = V c main_v1_1 _
  refine congrArg _ (funext fun a => Fin.ext ?_)
  match a with
  | ⟨0, _⟩ => show win1_2.index t (0 : Fin 2) * 2048 + 1 * q.val = q.val; rw [e0]; omega
  | ⟨1, _⟩ => show win1_2.index t (1 : Fin 2) * 1 + 1 * u.val = u.val; rw [e1]; omega

/-- The bias window's block is the whole bias row at every step. -/
theorem bblock_apply (c : Dev nD) (t : Fin cfg1.N) (u : Fin 1) (q : Fin 2048) :
    (iblk1 V c 3 t : FVec Ideal S1x2048 .f32) (ix2 u q) = (V c main_v2 : S1x2048.Idx → EReal) (ix2 u q) := by
  obtain ⟨-, -, -, -, -, -, e0, e1, -⟩ := idx_facts t
  unfold iblk1
  rw [View.read_apply]
  show V c main_v2 _ = V c main_v2 _
  refine congrArg _ (funext fun a => Fin.ext ?_)
  match a with
  | ⟨0, _⟩ => show win1_3.index t (0 : Fin 2) * 1 + 1 * u.val = u.val; rw [e0]; omega
  | ⟨1, _⟩ => show win1_3.index t (1 : Fin 2) * 2048 + 1 * q.val = q.val; rw [e1]; omega

/-- What step `t` writes back is block `t` of the output function of the four arrays as the region found them. -/
theorem flushed_out (c : Dev nD) (t : Fin cfg1.N) :
    (dat1 V c).flushed 4 t = ((cfg1.win 4).blk t).view.read (Elt Ideal)
      (outArr (V c main_v0) (V c main_v1_0) (V c main_v1_1) (V c main_v2)) := by
  show (cfg1.win 4).cut (grid1.coords t) ((dat1 V c).after 4 t) = _
  rw [after1_4]
  unfold out1_4
  rw [View.canon_unit_zero hz]
  simp only [View.ld_unit_zero (S := S512x2048) hz, View.ld_unit_zero (S := S2048x2048) hz,
    View.ld_unit_zero (S := S2048x1) hz, View.ld_unit_zero (S := S1x2048) hz]
  obtain ⟨-, -, -, -, -, -, -, -, e0, e1⟩ := idx_facts t
  have hN : t.val < 32 := t.isLt.trans_eq N_1
  funext j
  have hj0 : (j 0).val < 512 := (j 0).isLt
  have hj1 : (j 1).val < 2048 := (j 1).isLt
  have hj : j = ix2 (⟨(j 0).val, hj0⟩ : Fin 512) (⟨(j 1).val, hj1⟩ : Fin 2048) :=
    funext fun a => Fin.ext (by match a with | ⟨0, _⟩ => rfl | ⟨1, _⟩ => rfl)
  have hemb : ((cfg1.win 4).blk t).view.emb j
      = ix2 (⟨t.val * 512 + (j 0).val, by omega⟩ : Fin 16384) (⟨(j 1).val, hj1⟩ : Fin 2048) :=
    funext fun a => Fin.ext (by
      match a with
      | ⟨0, _⟩ => show win1_4.index t (0 : Fin 2) * 512 + 1 * (j 0).val = t.val * 512 + (j 0).val; rw [e0]; omega
      | ⟨1, _⟩ => show win1_4.index t (1 : Fin 2) * 2048 + 1 * (j 1).val = (j 1).val; rw [e1]; omega)
  show k1_pay1 (F := Ideal) (iblk1 V c 0 t) (iblk1 V c 1 t) (iblk1 V c 2 t) (iblk1 V c 3 t) j
    = outArr (V c main_v0) (V c main_v1_0) (V c main_v1_1) (V c main_v2) (((cfg1.win 4).blk t).view.emb j)
  refine (congrArg (k1_pay1 (F := Ideal) (iblk1 V c 0 t) (iblk1 V c 1 t) (iblk1 V c 2 t) (iblk1 V c 3 t)) hj).trans ?_
  refine (payload_apply _ _ _ _ ⟨(j 0).val, hj0⟩ ⟨(j 1).val, hj1⟩).trans ?_
  refine Eq.trans ?_ (congrArg (outArr (V c main_v0) (V c main_v1_0) (V c main_v1_1) (V c main_v2)) hemb).symm
  rw [outArr_apply, sblock_apply V c t, bblock_apply V c t]
  refine congrArg (fun z => z * _ + _) (Finset.sum_congr rfl fun k _ => ?_)
  rw [xblock_apply V c t ⟨(j 0).val, hj0⟩ k ⟨t.val * 512 + (j 0).val, by omega⟩ rfl, tblock_apply V c t]

/-- An index of the output is in step `t`'s block iff each coordinate is in the block's range. -/
theorem mem_blk_out (t : Fin cfg1.N) (i : S16384x2048.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_v3).slice (win1_4.rect t)).set ↔ _
  rw [View.set_slice_whole, Rect.mem_set_unit]
  exact Iff.rfl

/-- Row `r` of the output lies in the block of step `r / 512`. -/
theorem cover_out (i : S16384x2048.Idx) : ∃ t : Fin cfg1.N, (cfg1.win 4).flush t = true ∧ i ∈ ((cfg1.win 4).blk t).view.set := by
  have hi0 : (i 0).val < 16384 := (i 0).isLt
  have hi1 : (i 1).val < 2048 := (i 1).isLt
  refine ⟨⟨(i 0).val / 512, Nat.lt_of_lt_of_eq (by omega) N_1.symm⟩, flush1_4 _, ?_⟩
  rw [mem_blk_out]
  obtain ⟨-, -, -, -, -, -, -, -, e0, e1⟩ := idx_facts ⟨(i 0).val / 512, Nat.lt_of_lt_of_eq (by omega) N_1.symm⟩
  intro a
  match a with
  | ⟨0, _⟩ =>
    show win1_4.index _ (0 : Fin 2) * 512 ≤ (i 0).val ∧ (i 0).val < win1_4.index _ (0 : Fin 2) * 512 + 512
    rw [e0]; show (i 0).val / 512 * 512 ≤ (i 0).val ∧ (i 0).val < (i 0).val / 512 * 512 + 512; omega
  | ⟨1, _⟩ =>
    show win1_4.index _ (1 : Fin 2) * 2048 ≤ (i 1).val ∧ (i 1).val < win1_4.index _ (1 : Fin 2) * 2048 + 2048
    rw [e1]; omega

/-- After the region the output array is the output function of the four arrays as the region found them. -/
theorem final_out (c : Dev nD) :
    (dat1 V c).arrAt 4 cfg1.N = outArr (V c main_v0) (V c main_v1_0) (V c main_v1_1) (V c main_v2) :=
  (dat1 V c).arrAt_eq_of_cover 4 _ (fun t _ => flushed_out V c t) cover_out

end Cert.KernelIdeal.Region1

end
-- ==== Proof.Layer.lean ====
/-
  The composite of the program's segments, read at an entry, is the layer of `Cert.TernSpec`.

  The program flattens the input's first two axes, quantizes the weights, multiplies, and splits the rows of
  the product again. Flattening sends `(b, s)` to row `4096 b + s`, and splitting is its inverse, so entry
  `(b, s, o)` of the result is entry `(4096 b + s, o)` of the product, whose input row `4096 b + s` is row
  `(b, s)` of the input. The bias, re-shaped to one row, is read at its column.
-/
import proofs.«128771_j59562606461169_2_alg».proof.Proof.Blocks0
import proofs.«128771_j59562606461169_2_alg».proof.Proof.Blocks1
import proofs.«128771_j59562606461169_2_alg».proof.Proof.Spec
import Idealize.ShloMosaic.Lib.ValueLayout
import Idealize.ShloMosaic.Lib.Pipeline.Value

noncomputable section

open scoped BigOperators

namespace Cert.KernelIdeal.Result

open Cert.KernelIdeal Cert.KernelIdeal.Gen Idealize.ShloMosaic Idealize.ShloMosaic.ValueIdx
open Cert.KernelIdeal.Region0 Cert.KernelIdeal.Region1

/-- The result array as a function of the three argument arrays: the matrix-product region's output function, of
    the input flattened, of the quantization region's two output functions of the weights, and of the bias as a
    row, with its rows split again into two axes. -/
def result (x : S4x4096x2048.Idx → EReal) (w : S2048x2048.Idx → EReal) (bias : S2048.Idx → EReal) : S4x4096x2048.Idx → EReal :=
  shapeCast S4x4096x2048
    (outArr (shapeCast S16384x2048 x shapeCasts_S4x4096x2048_S16384x2048) (ternArr w) (scaleArr w)
      (shapeCast S1x2048 bias shapeCasts_S2048_S1x2048))
    shapeCasts_S16384x2048_S4x4096x2048

/-- Row `4096 b + s` of the flattened input is row `(b, s)` of the input. -/
theorem flat_apply (x : S4x4096x2048.Idx → EReal) (b : Fin 4) (s : Fin 4096) (k : Fin 2048) (r : Fin 16384)
    (hr : r.val = b.val * 4096 + s.val) :
    shapeCast S16384x2048 x shapeCasts_S4x4096x2048_S16384x2048 (ix2 r k) = x (ix3 b s k) :=
  shapeCast_apply x shapeCasts_S4x4096x2048_S16384x2048 (ix2 r k) (ix3 b s k) (by
    rw [Shape.rowMajor_val_two, Shape.rowMajor_val_three]
    show (b.val * 4096 + s.val) * 2048 + k.val = r.val * 2048 + k.val
    rw [hr])

/-- The result at `(b, s, o)`. -/
theorem result_apply (x : S4x4096x2048.Idx → EReal) (w : S2048x2048.Idx → EReal) (bias : S2048.Idx → EReal)
    (b : Fin 4) (s : Fin 4096) (o : Fin 2048) :
    result x w bias (ix3 b s o) = Cert.TernSpec.layerAt x w bias b s o := by
  have hr : b.val * 4096 + s.val < 16384 := by omega
  unfold result
  refine (shapeCast_apply _ shapeCasts_S16384x2048_S4x4096x2048 (ix3 b s o)
    (ix2 (⟨b.val * 4096 + s.val, hr⟩ : Fin 16384) o) (by
      rw [Shape.rowMajor_val_two, Shape.rowMajor_val_three]
      rfl)).trans ?_
  rw [outArr_apply]
  unfold Cert.TernSpec.layerAt
  refine congrArg₂ (· + ·) (congrArg₂ (· * ·) (Finset.sum_congr rfl fun k _ => congrArg₂ (· * ·) ?_ rfl) rfl) ?_
  · exact flat_apply x b s k ⟨b.val * 4096 + s.val, hr⟩ rfl
  · exact shapeCast_a_1a_apply bias shapeCasts_S2048_S1x2048 (0 : Fin 1) o

/-- The result array is the layer. -/
theorem result_eq_layer (x : S4x4096x2048.Idx → EReal) (w : S2048x2048.Idx → EReal) (bias : S2048.Idx → EReal) :
    result x w bias = Cert.TernSpec.layer x w bias := by
  funext i
  obtain ⟨b, s, o, rfl⟩ : ∃ (b : Fin 4) (s : Fin 4096) (o : Fin 2048), i = ix3 b s o := ⟨i 0, i 1, i 2, eq_ix3 i⟩
  rw [result_apply]
  rfl

end Cert.KernelIdeal.Result

end
-- ==== Proof.KernelValue.lean ====
/-
  The program's result array as a function of its arguments.

  Reading the fold of the five segments backwards from the result: the result is the matrix-product region's
  output re-shaped to three axes; that output is the region's output function of its four arrays at the
  region's entry; of these, the flattened input is the input argument re-shaped, the bias row the bias argument
  re-shaped, and the ternary matrix and the column of scales are what the quantization region left, its two
  output functions of the weight argument. Read at `(b, s, o)` the composite is the layer of `Cert.TernSpec`:
  flattening sends `(b, s)` to row `4096 b + s`.
-/
import proofs.«128771_j59562606461169_2_alg».proof.Proof.KernelRun
import proofs.«128771_j59562606461169_2_alg».proof.Proof.Blocks0
import proofs.«128771_j59562606461169_2_alg».proof.Proof.Blocks1
import proofs.«128771_j59562606461169_2_alg».proof.Proof.Layer
import Idealize.ShloMosaic.Lib.StableHlo.Run
import Idealize.ShloMosaic.Lib.ValueLayout

noncomputable section

open scoped BigOperators

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Cert.KernelIdeal.Region0 Cert.KernelIdeal.Region1

variable (m : (ℓ : Loc nD τ sig) → Buf (Elt Ideal) ℓ) (ρ : Dev nD → PrngReg)

/-! ## The four arrays at the matrix-product region's entry -/

/-- The quantization region finds the weight argument as launched. -/
theorem entry0_weights (c : Dev nD) : V1 m ρ c main_arg1 = m ((c : Thread nD τ).loc main_arg1) := by
  show StableHlo.after hostOps0 (W0 m ρ c) (Proc.devRef .tc main_arg1) = _
  after_results

/-- The flattened input is the input argument re-shaped. -/
theorem entry1_input (c : Dev nD) :
    V3 m ρ c main_v0 = shapeCast S16384x2048 (m ((c : Thread nD τ).loc main_arg0)) shapeCasts_S4x4096x2048_S16384x2048 := by
  show StableHlo.after hostOps1 (W2 m ρ c) (Proc.devRef .tc main_v0) = _
  after_results
  rw [W2_of_ne m ρ c main_v0 (by decide)]
  show StableHlo.after hostOps0 (W0 m ρ c) (Proc.devRef .tc main_v0) = _
  after_results
  rfl

/-- The ternary array is the ternary matrix of the weight argument. -/
theorem entry1_tern (c : Dev nD) : V3 m ρ c main_v1_0 = ternArr (m ((c : Thread nD τ).loc main_arg1)) := by
  show StableHlo.after hostOps1 (W2 m ρ c) (Proc.devRef .tc main_v1_0) = _
  after_results
  have h : W2 m ρ c (Proc.devRef .tc main_v1_0) = (dat0 (V1 m ρ) c).arrAt 1 cfg0.N := W2_arr m ρ c 1
  rw [h, final_tern (V1 m ρ) c, entry0_weights]

/-- The column of scales is the scales of the weight argument. -/
theorem entry1_scale (c : Dev nD) : V3 m ρ c main_v1_1 = scaleArr (m ((c : Thread nD τ).loc main_arg1)) := by
  show StableHlo.after hostOps1 (W2 m ρ c) (Proc.devRef .tc main_v1_1) = _
  after_results
  have h : W2 m ρ c (Proc.devRef .tc main_v1_1) = (dat0 (V1 m ρ) c).arrAt 2 cfg0.N := W2_arr m ρ c 2
  rw [h, final_scale (V1 m ρ) c, entry0_weights]

/-- The bias row is the bias argument re-shaped. -/
theorem entry1_bias (c : Dev nD) :
    V3 m ρ c main_v2 = shapeCast S1x2048 (m ((c : Thread nD τ).loc main_arg2)) shapeCasts_S2048_S1x2048 := by
  show StableHlo.after hostOps1 (W2 m ρ c) (Proc.devRef .tc main_v2) = _
  after_results
  rw [W2_of_ne m ρ c main_arg2 (by decide)]
  show (fun i => shapeCast S1x2048 (StableHlo.after hostOps0 (W0 m ρ c) (Proc.devRef .tc main_arg2)) shapeCasts_S2048_S1x2048 i) = _
  after_results

/-- The result array at the end of the program. -/
theorem final_result (c : Dev nD) :
    W5 m ρ c (Proc.devRef .tc main_v4)
      = result (m ((c : Thread nD τ).loc main_arg0)) (m ((c : Thread nD τ).loc main_arg1)) (m ((c : Thread nD τ).loc main_arg2)) := by
  show StableHlo.after hostOps2 (W4 m ρ c) (Proc.devRef .tc main_v4) = _
  after_results
  have h : W4 m ρ c (Proc.devRef .tc main_v3) = (dat1 (V3 m ρ) c).arrAt 4 cfg1.N := W4_arr m ρ c 4
  rw [h, final_out (V3 m ρ) c, entry1_input, entry1_tern, entry1_scale, entry1_bias]
  rfl

end Cert.KernelIdeal.Result

end
-- ==== Proof.Ref.lean ====
/-
  The reference program, read at an entry, is the layer of `Cert.TernSpec`.

  The reference computes the scale of every row (the maximum is taken with the floor as its first operand, and the
  row sum starts from a zero), the ternary matrix, the dequantized matrix `ternary * scale`, the product of the
  input with it along the last axis of both, and adds the bias. Read at `(b, s, o)` that is
  `∑ k, x (b, s, k) * (t (o, k) * scale o) + bias o`; for finite weights the scale can be taken out of the sum.
-/
import proofs.«128771_j59562606461169_2_alg».proof.Proof.Gen.ReferenceIdeal.Read
import proofs.«128771_j59562606461169_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.TernSpec

/-- The reference's column of scales at row `o`. -/
theorem scale_apply (w : S2048x2048.Idx → EReal) (o : Fin 2048) (u : Fin 1) :
    val_main_v5 (F := Ideal) w (ix2 o u) = rowScale w o := by
  have e1 : idx_main_v2 (ix2 o u) = ix1 o := funext fun a => Fin.ext (by match a with | ⟨0, _⟩ => rfl)
  have e2 : ∀ k : Fin 2048, idx_main_v1 (ix1 o) k = ix2 o k := fun k =>
    funext fun a => Fin.ext (by match a with | ⟨0, _⟩ => rfl | ⟨1, _⟩ => rfl)
  rw [val_main_v5_apply, val_main_call0_v1_apply, val_main_call0_v0_apply, val_main_cst_1_apply, val_main_v4_apply,
    val_main_v2_apply, val_main_v3_apply, val_main_cst_0_apply, e1, val_main_v1_apply, val_main_cst_apply]
  simp only [e2, val_main_v0_apply, Ideal.ofBits_def, Ideal.hostDivf_def, Ideal.maximumf_def, Ideal.hostAbsf_def,
    Ideal.absf_def, Ideal.ofBits_zero_f32, zero_add]
  exact max_comm _ _

/-- The reference's ternary matrix at `(o, k)`. -/
theorem tern_apply (w : S2048x2048.Idx → EReal) (o k : Fin 2048) :
    val_main_v14 (F := Ideal) w (ix2 o k) = ternAt w o k := by
  have e6 : idx_main_v6 (ix2 o k) = ix2 o (0 : Fin 1) :=
    funext fun a => Fin.ext (by match a with | ⟨0, _⟩ => rfl | ⟨1, _⟩ => rfl)
  have h7 : val_main_v7 (F := Ideal) w (ix2 o k) = Ideal.div (w (ix2 o k)) (rowScale w o) := by
    rw [val_main_v7_apply, val_main_v6_apply, e6, scale_apply]; rfl
  rw [val_main_v14_apply, val_main_v13_apply, val_main_v9_apply, val_main_v12_apply, val_main_v11_apply, h7,
    val_main_v8_apply, val_main_cst_2_apply, val_main_call2_v0_apply, val_main_cst_6_apply, val_main_v10_apply,
    val_main_cst_3_apply, val_main_call1_v0_apply, val_main_cst_4_apply, val_main_call1_v1_apply, val_main_cst_5_apply]
  rfl

/-- The reference's dequantized matrix at `(o, k)`. -/
theorem dequant_apply (w : S2048x2048.Idx → EReal) (o k : Fin 2048) :
    val_main_v16 (F := Ideal) w (ix2 o k) = ternAt w o k * rowScale w o := by
  have e15 : idx_main_v15 (ix2 o k) = ix2 o (0 : Fin 1) :=
    funext fun a => Fin.ext (by match a with | ⟨0, _⟩ => rfl | ⟨1, _⟩ => rfl)
  rw [val_main_v16_apply, tern_apply, val_main_v15_apply, e15, scale_apply]
  rfl

/-- The reference's result at `(b, s, o)`. -/
theorem result_apply (x : S4x4096x2048.Idx → EReal) (w : S2048x2048.Idx → EReal) (bias : S2048.Idx → EReal)
    (b : Fin 4) (s : Fin 4096) (o : Fin 2048) :
    val_main_v20 (F := Ideal) x w bias (ix3 b s o)
      = (∑ k : Fin 2048, x (ix3 b s k) * (ternAt w o k * rowScale w o)) + bias (ix1 o) := by
  have el : ∀ k : Fin 2048, lidx_main_v17 (ix3 b s o) k = ix3 b s k := fun k =>
    funext fun a => Fin.ext (by match a with | ⟨0, _⟩ => rfl | ⟨1, _⟩ => rfl | ⟨2, _⟩ => rfl)
  have er : ∀ k : Fin 2048, ridx_main_v17 (ix3 b s o) k = ix2 o k := fun k =>
    funext fun a => Fin.ext (by match a with | ⟨0, _⟩ => rfl | ⟨1, _⟩ => rfl)
  have eb : idx_main_v18 (idx_main_v19 (ix3 b s o)) = ix1 o :=
    funext fun a => Fin.ext (by match a with | ⟨0, _⟩ => rfl)
  rw [val_main_v20_apply, val_main_v17_apply, val_main_v19_apply, val_main_v18_apply, eb]
  simp only [el, er, dequant_apply]
  rfl

/-- For finite weights the reference's result is the layer. -/
theorem result_eq_layer (x : S4x4096x2048.Idx → EReal) (w : S2048x2048.Idx → EReal) (bias : S2048.Idx → EReal)
    (hw : ∀ i, ∃ r : ℝ, w i = (r : EReal)) : val_main_v20 (F := Ideal) x w bias = layer x w bias := by
  funext i
  obtain ⟨b, s, o, rfl⟩ : ∃ (b : Fin 4) (s : Fin 4096) (o : Fin 2048), i = ix3 b s o := ⟨i 0, i 1, i 2, eq_ix3 i⟩
  rw [result_apply, scaled_sum x w hw]
  rfl

end Cert.ReferenceIdeal.RefValue

end
-- ==== Proof.Finite.lean ====
/-
  From the precondition to finite weights.

  The precondition is the conjunction of three tests, one per argument array: every absolute value is below
  `+∞`. On the extended reals an absolute value `max a (-a)` is below `+∞` exactly when `a` is neither infinity,
  that is when `a` is a real number. Only the weight matrix's test is used.
-/
import proofs.«128771_j59562606461169_2_alg».proof.Pre_finite_inputs
import proofs.«128771_j59562606461169_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Cert.Pre_finite_inputs.Gen Idealize.ShloMosaic

instance : Subsingleton S_.Idx := ⟨fun a b => funext fun d => d.elim0⟩

/-- The pattern of the comparison's right-hand side denotes `+∞`. -/
theorem ofBits_inf : Ideal.ofBits .f32 0x7F800000#32 = ⊤ := by
  simp [Ideal.ofBits, Ideal.ieee]

/-- An ordered "less than" that answers 1 is the order's "less than". -/
theorem lt_of_cmp_olt {a b : EReal} (h : Ideal.cmp .olt a b = 1#1) : a < b := by
  unfold Ideal.cmp at h
  by_contra hn
  simp [hn] at h

/-- An extended real whose absolute value is below `+∞` is a real number. -/
theorem real_of_abs_lt_top {a : EReal} (h : max a (-a) < ⊤) : ∃ r : ℝ, a = (r : EReal) := by
  have hne_top : a ≠ ⊤ := fun e => by rw [e] at h; simp at h
  have hne_bot : a ≠ ⊥ := fun e => by rw [e] at h; simp at h
  exact ⟨a.toReal, (EReal.coe_toReal hne_top hne_bot).symm⟩

/-- Under the precondition every weight is a real number. -/
theorem weights_real (x : FVec Ideal S4x4096x2048 .f32) (w : FVec Ideal S2048x2048 .f32) (b : FVec Ideal S2048 .f32)
    (h : fn (F := Ideal) x w b = fun _ => 1#1) (i : S2048x2048.Idx) : ∃ r : ℝ, w i = (r : EReal) := by
  have h0 := congrFun h ValueIdx.ix0
  dsimp only [fn] at h0
  have h1 := (IntOp.andi_eq_one.mp h0).1
  have h2 := (IntOp.andi_eq_one.mp h1).2
  have h3 := Host.reduce_andi_all _ _ _ _ _ h2 i
  have h4 : Ideal.cmp .olt (max (w i) (-(w i))) (Ideal.ofBits .f32 0x7F800000#32) = 1#1 := h3
  rw [ofBits_inf] at h4
  exact real_of_abs_lt_top (lt_of_cmp_olt h4)

end Cert.Pre_finite_inputs.Finite

end
-- ==== Proof.lean ====
/-
  A linear layer with ternary-quantized weights: the kernel against its reference, on the extended reals.

  Both programs quantize the weight matrix row by row — a row's scale is the mean of its absolute values kept
  above a small floor, and an entry becomes 1, -1 or 0 by comparing its quotient by the scale with ±0.05 —
  and apply the result to every row of the input, adding a bias. The kernel does it in two grid-pipelined
  regions: the first writes the ternary matrix and the column of scales block of rows by block of rows, the
  second multiplies blocks of input rows by the ternary matrix and only then by the scale of each output
  feature. The reference multiplies the ternary matrix by the scales first and the input by that product.
  The two results are `(∑ k, x k * t k) * s + bias` and `∑ k, x k * (t k * s) + bias`: equal because a finite
  non-negative `s` distributes over any sum of extended reals, and `s` is finite because the weights are.

  The kernel's result is read off the run of its five segments (`KernelRun`, `KernelValue`): each region's
  output arrays are whole-array functions of its input arrays (`Blocks0`, `Blocks1`, over the stored values read
  at an entry in `Quant` and `Matmul`), composed with the re-shapings between them (`Layer`). The reference's
  result is read operation by operation (`Ref`). `Spec` holds the layer and the distributive law, `Finite` the
  step from the precondition to finite weights.
-/
import proofs.«128771_j59562606461169_2_alg».proof.Defs
import proofs.«128771_j59562606461169_2_alg».proof.Proof.Gen.Kernel
import proofs.«128771_j59562606461169_2_alg».proof.Proof.Gen.Kernel.Skeleton
import proofs.«128771_j59562606461169_2_alg».proof.Proof.Gen.Kernel.Launch
import proofs.«128771_j59562606461169_2_alg».proof.Proof.Gen.Kernel.Points
import proofs.«128771_j59562606461169_2_alg».proof.Proof.Gen.Kernel.Frame
import proofs.«128771_j59562606461169_2_alg».proof.Proof.Gen.KernelIdeal
import proofs.«128771_j59562606461169_2_alg».proof.Proof.Gen.KernelIdeal.Skeleton
import proofs.«128771_j59562606461169_2_alg».proof.Proof.Gen.KernelIdeal.Launch
import proofs.«128771_j59562606461169_2_alg».proof.Proof.Gen.KernelIdeal.Points
import proofs.«128771_j59562606461169_2_alg».proof.Proof.Gen.KernelIdeal.Frame
import proofs.«128771_j59562606461169_2_alg».proof.Proof.Gen.ReferenceIdeal
import proofs.«128771_j59562606461169_2_alg».proof.Proof.Gen.Pre_finite_inputs
import proofs.«128771_j59562606461169_2_alg».proof.Proof.Gen.ReferenceIdeal.Run
import proofs.«128771_j59562606461169_2_alg».proof.Proof.Gen.ReferenceIdeal.Read
import proofs.«128771_j59562606461169_2_alg».proof.Proof.KernelValue
import proofs.«128771_j59562606461169_2_alg».proof.Proof.Layer
import proofs.«128771_j59562606461169_2_alg».proof.Proof.Ref
import proofs.«128771_j59562606461169_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer of the argument arrays in their result. -/
theorem algebraic : Cert.algebraic_KernelIdeal_ReferenceIdeal := by
  intro m ρ m' ρ' hpre hagree
  refine ⟨fun c => Cert.TernSpec.layer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Run.run_result (F := Ideal) m ρ)
    rw [Cert.KernelIdeal.Result.final_result, Cert.KernelIdeal.Result.result_eq_layer]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, (hagree c).1, (hagree c).2.1, (hagree c).2.2]
    exact Cert.ReferenceIdeal.RefValue.result_eq_layer _ _ _
      (Cert.Pre_finite_inputs.Finite.weights_real _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
